-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x6144 : Shape := ⟨2, ![1024, 6144]⟩
abbrev S2048x6144 : Shape := ⟨2, ![2048, 6144]⟩
abbrev S6144 : Shape := ⟨1, ![6144]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_arg4 : FVec F S2048x6144 .f32) (main_arg5 : FVec F S6144 .f32) (main_v13 : IVec S_ 1) (main_v16 : IVec S1024x6144 1) : IVec S_ 1 :=
  let main_c_5 : IVec S_ 1 := constantI S_ 1 1#1
  let main_v17 : IVec S_ 1 := (fun x v => Host.reduce IntOp.andi x v reducesTo_S1024x6144_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  main_v28

def fn {F : FTy → Type} [FloatOps F] (main_arg0 : FVec F S8192x1024 .f32) (main_arg1 : FVec F S8192x2048 .f32) (main_arg2 : FVec F S8192x2048 .f32) (main_arg3 : FVec F S1024x6144 .f32) (main_arg4 : FVec F S2048x6144 .f32) (main_arg5 : FVec F S6144 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1024x6144 .f32 := Host.absf main_arg3
  let main_cst_4 : FVec F S_ .f32 := constant S_ .f32 0x7F800000#32
  let main_v15 : FVec F S1024x6144 .f32 := broadcastInDim S1024x6144 ![] bcast_S_S1024x6144 main_cst_4
  let main_v16 : IVec S1024x6144 1 := cmpf .olt main_v14 main_v15
  fn_part1 (F := F) main_arg4 main_arg5 main_v13 main_v16
-- ==== Kernel.lean ====
abbrev S8192x1024 : Shape := ⟨2, ![8192, 1024]⟩
abbrev S8192x2048 : Shape := ⟨2, ![8192, 2048]⟩
abbrev S1024x6144 : Shape := ⟨2, ![1024, 6144]⟩
abbrev S2048x6144 : Shape := ⟨2, ![2048, 6144]⟩
abbrev S6144 : Shape := ⟨1, ![6144]⟩
abbrev S1x6144 : Shape := ⟨2, ![1, 6144]⟩
abbrev S256x1024 : Shape := ⟨2, ![256, 1024]⟩
abbrev S256x2048 : Shape := ⟨2, ![256, 2048]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S1024x6144, .f32⟩
  | .hbm, ⟨4, _⟩ => ⟨S2048x6144, .f32⟩
  | .hbm, ⟨5, _⟩ => ⟨S6144, .f32⟩
  | .hbm, ⟨6, _⟩ => ⟨S1024x6144, .bf16⟩
  | .hbm, ⟨7, _⟩ => ⟨S2048x6144, .bf16⟩
  | .hbm, ⟨8, _⟩ => ⟨S1x6144, .f32⟩
  | .hbm, ⟨9, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1024x6144, .bf16⟩
  | .local _ .vmem, ⟨5, _⟩ => ⟨S2048x6144, .bf16⟩
  | .local _ .vmem, ⟨6, _⟩ => ⟨S1x6144, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S6144_S1x6144 : S6144.ShapeCasts S1x6144
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1024x6144_S1024x2048_0_0 : ∀ a, (![0, 0] : Fin 2 → Nat) a + S1024x2048.size a ≤ S1024x6144.size a
  h_S1024x2048 : 0 < S1024x2048.numel
  shapeCasts_S1024x2048_S1024x2048 : S1024x2048.ShapeCasts S1024x2048
  inb_S1024x6144_S1024x2048_0_2048 : ∀ a, (![0, 2048] : Fin 2 → Nat) a + S1024x2048.size a ≤ S1024x6144.size a
  inb_S1024x6144_S1024x2048_0_4096 : ∀ a, (![0, 4096] : Fin 2 → Nat) a + S1024x2048.size a ≤ S1024x6144.size a
  inb_S2048x6144_S2048x2048_0_0 : ∀ a, (![0, 0] : Fin 2 → Nat) a + S2048x2048.size a ≤ S2048x6144.size a
  h_S2048x2048 : 0 < S2048x2048.numel
  shapeCasts_S2048x2048_S2048x2048 : S2048x2048.ShapeCasts S2048x2048
  inb_S2048x6144_S2048x2048_0_2048 : ∀ a, (![0, 2048] : Fin 2 → Nat) a + S2048x2048.size a ≤ S2048x6144.size a
  inb_S2048x6144_S2048x2048_0_4096 : ∀ a, (![0, 4096] : Fin 2 → Nat) a + S2048x2048.size a ≤ S2048x6144.size a
  inb_S1x6144_S1x2048_0_0 : ∀ a, (![0, 0] : Fin 2 → Nat) a + S1x2048.size a ≤ S1x6144.size a
  h_S1x2048 : 0 < S1x2048.numel
  shapeCasts_S1x2048_S1x2048 : S1x2048.ShapeCasts S1x2048
  inb_S1x6144_S1x2048_0_2048 : ∀ a, (![0, 2048] : Fin 2 → Nat) a + S1x2048.size a ≤ S1x6144.size a
  inb_S1x6144_S1x2048_0_4096 : ∀ a, (![0, 4096] : Fin 2 → Nat) a + S1x2048.size a ≤ S1x6144.size a
  broadcasts_S1x2048_S256x2048 : S1x2048.Broadcasts S256x2048
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x6144.size a ≤ S1024x6144.size a
  hwx0_2 : ∀ i : grid0.Coords, EltTy.bits .bf16 = 32 ∨ (Rect.block (s := S1024x6144) S1024x6144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x6144.size a ≤ S2048x6144.size a
  hwx0_3 : ∀ i : grid0.Coords, EltTy.bits .bf16 = 32 ∨ (Rect.block (s := S2048x6144) S2048x6144.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x6144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x6144 : Shape := ⟨2, ![1024, 6144]⟩
abbrev S2048x6144 : Shape := ⟨2, ![2048, 6144]⟩
abbrev S6144 : Shape := ⟨1, ![6144]⟩
abbrev S8192x6144 : Shape := ⟨2, ![8192, 6144]⟩
abbrev S1x6144 : Shape := ⟨2, ![1, 6144]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S1024x6144, .f32⟩
  | .hbm, ⟨4, _⟩ => ⟨S2048x6144, .f32⟩
  | .hbm, ⟨5, _⟩ => ⟨S6144, .f32⟩
  | .hbm, ⟨6, _⟩ => ⟨S8192x6144, .f32⟩
  | .hbm, ⟨7, _⟩ => ⟨S8192x6144, .f32⟩
  | .hbm, ⟨8, _⟩ => ⟨S8192x6144, .f32⟩
  | .hbm, ⟨9, _⟩ => ⟨S1x6144, .f32⟩
  | .hbm, ⟨10, _⟩ => ⟨S8192x6144, .f32⟩
  | .hbm, ⟨11, _⟩ => ⟨S8192x6144, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x1024_S1024x6144_S8192x6144_1_0_0_1_n_n_wf : DotDims.WF S8192x1024 S1024x6144 S8192x6144 [1] [0] [0] [1] [] []
  dot_S8192x2048_S2048x6144_S8192x6144_1_0_0_1_n_n_wf : DotDims.WF S8192x2048 S2048x6144 S8192x6144 [1] [0] [0] [1] [] []

variable [Facts₀]

def dot_S8192x1024_S1024x6144_S8192x6144_1_0_0_1_n_n : DotDims S8192x1024 S1024x6144 S8192x6144 where
  lhsContracting := [1]
  rhsContracting := [0]
  lhsNonContracting := [0]
  rhsNonContracting := [1]
  lhsBatch := []
  rhsBatch := []
  wf := dot_S8192x1024_S1024x6144_S8192x6144_1_0_0_1_n_n_wf
def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf

class Facts : Prop extends Facts₀ where

variable [Facts]
-- ==== Proof.CellSpec.lean ====
/-
  One step of a recurrent cell's state, entry by entry, over the extended reals.

  The cell has three gates of width 2048 whose pre-activations sit side by side in a 6144-wide array: columns
  0 … 2047 are the forget gate, 2048 … 4095 the input gate, 4096 … 6143 the candidate.  Column n of the
  pre-activations of one batch row is

      pre n = (Σ_k x[k] · W[k, n]  +  Σ_k h[k] · Wh[k, n])  +  b[n],

  x the row of the input (1024 entries), h the row of the hidden state (2048 entries).  Entry q of the new cell
  state of that row is

      σ(pre q) · c  +  σ(pre (2048 + q)) · tanh(pre (4096 + q)),

  c the old cell state's entry and σ the logistic function.  So an entry depends on ONE row of the input and of the hidden
  state, on ONE entry of the old cell state, and on THREE columns of each weight matrix and of the bias.  The functions
  below say exactly that, with rows and columns as plain functions, so that they can be read off an array of any
  number of rows: the whole batch, or a block of it.
-/
import Idealize.ShloMosaic.PureOps.Ideal
import Idealize.ShloMosaic.Lib.ValueIdx

noncomputable section

open scoped BigOperators

namespace Cert.CellSpec

open Idealize.ShloMosaic Idealize.ShloMosaic.ValueIdx

/-- Column `o + q` of the 6144 gate columns: column `q` of the gate whose columns start at `o`. -/
def col (o : Nat) (ho : o + 2048 ≤ 6144) (q : Fin 2048) : Fin 6144 := ⟨o + q.val, by have := q.isLt; omega⟩

@[simp] theorem col_val (o : Nat) (ho : o + 2048 ≤ 6144) (q : Fin 2048) : (col o ho q).val = o + q.val := rfl

/-- Column `n` of one batch row's pre-activations: the input row times column `n` of `W`, plus the hidden row times
    column `n` of `Wh`, and then the bias added to that sum. -/
def pre (xr : Fin 1024 → EReal) (hr : Fin 2048 → EReal) (W : Fin 1024 → Fin 6144 → EReal)
    (Wh : Fin 2048 → Fin 6144 → EReal) (b : Fin 6144 → EReal) (n : Fin 6144) : EReal :=
  ((∑ k : Fin 1024, xr k * W k n) + ∑ k : Fin 2048, hr k * Wh k n) + b n

/-- Entry `q` of one batch row's new cell state: the forget gate's logistic times the old entry `c`, plus the input
    gate's logistic times the candidate's hyperbolic tangent. -/
def cellEntry (xr : Fin 1024 → EReal) (hr : Fin 2048 → EReal) (c : EReal) (W : Fin 1024 → Fin 6144 → EReal)
    (Wh : Fin 2048 → Fin 6144 → EReal) (b : Fin 6144 → EReal) (q : Fin 2048) : EReal :=
  Ideal.logistic (pre xr hr W Wh b (col 0 (by decide) q)) * c
    + Ideal.logistic (pre xr hr W Wh b (col 2048 (by decide) q)) * Ideal.tanh (pre xr hr W Wh b (col 4096 (by decide) q))

/-- THE SPECIFICATION: the new cell state of the whole batch of 8192 rows.  Entry `(r, q)` is the cell entry of row `r`
    of the input `x` and of the hidden state `h`, of entry `(r, q)` of the old cell state `c0`, and of the weights `W`, `Wh`
    and the bias `b` as they are. -/
def cellArr (x : (⟨2, ![8192, 1024]⟩ : Shape).Idx → EReal) (h c0 : (⟨2, ![8192, 2048]⟩ : Shape).Idx → EReal)
    (W : (⟨2, ![1024, 6144]⟩ : Shape).Idx → EReal) (Wh : (⟨2, ![2048, 6144]⟩ : Shape).Idx → EReal)
    (b : (⟨1, ![6144]⟩ : Shape).Idx → EReal) : (⟨2, ![8192, 2048]⟩ : Shape).Idx → EReal := fun i =>
  cellEntry (fun k => x (ix2 (i 0) k)) (fun k => h (ix2 (i 0) k)) (c0 i) (fun k n => W (ix2 k n)) (fun k n => Wh (ix2 k n))
    (fun n => b (ix1 n)) (i 1)

/-- The specification at row `r`, column `q`. -/
theorem cellArr_apply (x : (⟨2, ![8192, 1024]⟩ : Shape).Idx → EReal) (h c0 : (⟨2, ![8192, 2048]⟩ : Shape).Idx → EReal)
    (W : (⟨2, ![1024, 6144]⟩ : Shape).Idx → EReal) (Wh : (⟨2, ![2048, 6144]⟩ : Shape).Idx → EReal)
    (b : (⟨1, ![6144]⟩ : Shape).Idx → EReal) (r : Fin 8192) (q : Fin 2048) :
    cellArr x h c0 W Wh b (ix2 r q)
      = cellEntry (fun k => x (ix2 r k)) (fun k => h (ix2 r k)) (c0 (ix2 r q)) (fun k n => W (ix2 k n)) (fun k n => Wh (ix2 k n))
          (fun n => b (ix1 n)) q := rfl

/-- The single-precision pattern of 1.0 denotes the real number one. -/
theorem ofBits_one : Ideal.ofBits .f32 0x3F800000#32 = 1 := by
  -- the pattern has biased exponent 127 and an empty fraction: 2^23 · 2^(-23), as a product of two reals
  simp [Ideal.ofBits, Ideal.ieee]
  rw [← EReal.coe_mul, ← EReal.coe_one]
  congr 1
  norm_num

/-- The logistic function spelt out — one over one plus the exponential of the negated argument, the ones written as
    the pattern of 1.0 — is the logistic function, at every extended real: this is its definition, the two
    infinities included. -/
theorem logistic_spelt (z : EReal) :
    Ideal.div (Ideal.ofBits .f32 0x3F800000#32) (Ideal.ofBits .f32 0x3F800000#32 + Ideal.exp (-z)) = Ideal.logistic z := by
  rw [ofBits_one]; rfl

end Cert.CellSpec

end
-- ==== Proof.RefCell.lean ====
/-
  The reference, read entry by entry.

  The reference multiplies the whole input by the whole `W` and the whole hidden state by the whole `Wh`, adds the two
  products, adds the bias broadcast along the batch, and only then cuts the 6144 columns into the three gates; the logistic
  function it spells as one over one plus the exponential of the negated argument.  Read at row `r` and column `q`, each
  gate's slice is the pre-activation at column `q`, `2048 + q` or `4096 + q` of row `r`, so the result is the cell entry of
  Proof/CellSpec.lean for row `r` of the input and of the hidden state, entry `(r, q)` of the old cell state, and the
  weights and the bias as they are.
-/
import proofs.«151260_j22995254903543_2_alg».proof.Proof.Gen.ReferenceIdeal.Read
import proofs.«151260_j22995254903543_2_alg».proof.Proof.CellSpec

noncomputable section

open scoped BigOperators

namespace Cert.ReferenceIdeal.RefCell

open Cert.ReferenceIdeal Cert.ReferenceIdeal.Read Idealize.ShloMosaic Idealize.ShloMosaic.ValueIdx Cert.CellSpec

/-- Column `o + q` of row `r` of the 6144-wide array, as the slice that starts at column `o` names it. -/
theorem slice_idx (r : Fin 8192) (q : Fin 2048) :
    idx_main_v6 (ix2 r q) = ix2 r (col 0 (by decide) q)
    ∧ idx_main_v7 (ix2 r q) = ix2 r (col 2048 (by decide) q)
    ∧ idx_main_v8 (ix2 r q) = ix2 r (col 4096 (by decide) q) := by
  refine ⟨funext fun a => Fin.ext ?_, funext fun a => Fin.ext ?_, funext fun a => Fin.ext ?_⟩
  · match a with
    | ⟨0, _⟩ => rfl
    | ⟨1, _⟩ => show q.val = 0 + q.val; omega
  · match a with
    | ⟨0, _⟩ => rfl
    | ⟨1, _⟩ => rfl
  · match a with
    | ⟨0, _⟩ => rfl
    | ⟨1, _⟩ => rfl

/-- Row `r`, column `n` of the pre-activations `(x·W + h·Wh) + b` is the specification's `pre` of row `r`. -/
theorem pre_apply (x0 : (⟨S8192x1024, .f32⟩ : BufTy).Contents (Elt Ideal)) (x1 : (⟨S8192x2048, .f32⟩ : BufTy).Contents (Elt Ideal))
    (x3 : (⟨S1024x6144, .f32⟩ : BufTy).Contents (Elt Ideal)) (x4 : (⟨S2048x6144, .f32⟩ : BufTy).Contents (Elt Ideal))
    (x5 : (⟨S6144, .f32⟩ : BufTy).Contents (Elt Ideal)) (r : Fin 8192) (n : Fin 6144) :
    val_main_v5 (F := Ideal) x0 x1 x3 x4 x5 (ix2 r n)
      = pre (fun k => x0 (ix2 r k)) (fun k => x1 (ix2 r k)) (fun k n => x3 (ix2 k n)) (fun k n => x4 (ix2 k n)) (fun n => x5 (ix1 n)) n := by
  have el0 : ∀ k : Fin 1024, lidx_main_v0 (ix2 r n) k = ix2 r k := fun k => funext fun a => Fin.ext (by
    match a with | ⟨0, _⟩ => rfl | ⟨1, _⟩ => rfl)
  have er0 : ∀ k : Fin 1024, ridx_main_v0 (ix2 r n) k = ix2 k n := fun k => funext fun a => Fin.ext (by
    match a with | ⟨0, _⟩ => rfl | ⟨1, _⟩ => rfl)
  have el1 : ∀ k : Fin 2048, lidx_main_v1 (ix2 r n) k = ix2 r k := fun k => funext fun a => Fin.ext (by
    match a with | ⟨0, _⟩ => rfl | ⟨1, _⟩ => rfl)
  have er1 : ∀ k : Fin 2048, ridx_main_v1 (ix2 r n) k = ix2 k n := fun k => funext fun a => Fin.ext (by
    match a with | ⟨0, _⟩ => rfl | ⟨1, _⟩ => rfl)
  have eb : idx_main_v3 (idx_main_v4 (ix2 r n)) = ix1 n := funext fun a => Fin.ext (by
    match a with | ⟨0, _⟩ => rfl)
  rw [val_main_v5_apply, val_main_v2_apply, val_main_v0_apply, val_main_v1_apply, val_main_v4_apply, val_main_v3_apply, eb]
  simp only [el0, er0, el1, er1, Ideal.addf_def]
  rfl

/-- THE REFERENCE AT AN ENTRY: row `r`, column `q` of its result is the cell entry of row `r`. -/
theorem ref_apply (x0 : (⟨S8192x1024, .f32⟩ : BufTy).Contents (Elt Ideal)) (x1 x2 : (⟨S8192x2048, .f32⟩ : BufTy).Contents (Elt Ideal))
    (x3 : (⟨S1024x6144, .f32⟩ : BufTy).Contents (Elt Ideal)) (x4 : (⟨S2048x6144, .f32⟩ : BufTy).Contents (Elt Ideal))
    (x5 : (⟨S6144, .f32⟩ : BufTy).Contents (Elt Ideal)) (r : Fin 8192) (q : Fin 2048) :
    val_main_v24 (F := Ideal) x0 x1 x2 x3 x4 x5 (ix2 r q)
      = cellEntry (fun k => x0 (ix2 r k)) (fun k => x1 (ix2 r k)) (x2 (ix2 r q)) (fun k n => x3 (ix2 k n)) (fun k n => x4 (ix2 k n)) (fun n => x5 (ix1 n)) q := by
  obtain ⟨e6, e7, e8⟩ := slice_idx r q
  rw [val_main_v24_apply, val_main_v15_apply, val_main_v14_apply, val_main_v13_apply, val_main_cst_0_apply, val_main_v12_apply,
    val_main_v11_apply, val_main_cst_apply, val_main_v10_apply, val_main_v9_apply, val_main_v6_apply, e6, pre_apply,
    val_main_v23_apply, val_main_v21_apply, val_main_v20_apply, val_main_cst_2_apply, val_main_v19_apply, val_main_v18_apply,
    val_main_cst_1_apply, val_main_v17_apply, val_main_v16_apply, val_main_v7_apply, e7, pre_apply,
    val_main_v22_apply, val_main_v8_apply, e8, pre_apply]
  simp only [Ideal.addf_def, Ideal.mulf_def, Ideal.hostDivf_def, Ideal.hostUnary_exp_def, Ideal.hostNegf_def, Ideal.negf_def,
    Ideal.hostUnary_tanh_def, Ideal.ofBits_def, logistic_spelt]
  rfl

/-- THE REFERENCE IS THE SPECIFICATION: its result, as a function of its six arguments, is `cellArr` of them. -/
theorem ref_eq (x0 : (⟨S8192x1024, .f32⟩ : BufTy).Contents (Elt Ideal)) (x1 x2 : (⟨S8192x2048, .f32⟩ : BufTy).Contents (Elt Ideal))
    (x3 : (⟨S1024x6144, .f32⟩ : BufTy).Contents (Elt Ideal)) (x4 : (⟨S2048x6144, .f32⟩ : BufTy).Contents (Elt Ideal))
    (x5 : (⟨S6144, .f32⟩ : BufTy).Contents (Elt Ideal)) :
    val_main_v24 (F := Ideal) x0 x1 x2 x3 x4 x5 = cellArr x0 x1 x2 x3 x4 x5 := by
  funext i
  obtain ⟨r, q, rfl⟩ : ∃ (r : Fin 8192) (q : Fin 2048), i = ix2 r q := ⟨i 0, i 1, eq_ix2 i⟩
  exact (ref_apply x0 x1 x2 x3 x4 x5 r q).trans (cellArr_apply x0 x1 x2 x3 x4 x5 r q).symm

end Cert.ReferenceIdeal.RefCell

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«151260_j22995254903543_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.CellBlock.lean ====
/-
  What one grid point computes, read entry by entry.

  At a grid point the body holds a block of 256 batch rows of the input (`x0`), of the hidden state (`x1`) and of the old
  cell state (`x5`), and the WHOLE of the two weight matrices (`x2`, `x3`) and of the bias as one row (`x4`).  It cuts the
  three gates' columns out of the weights and the bias BEFORE multiplying — three products of the input block and three of
  the hidden block, each 2048 columns wide — where the specification cuts them out of the 6144-wide pre-activations
  afterwards.  Column `q` of the product with the columns that start at `o` is column `o + q` of the product with all of
  them: a sum over the same `k` of the same products.  So entry `(p, q)` of what the body stores is the cell entry of
  Proof/CellSpec.lean for row `p` of the three blocks.  Narrowing to sixteen bits changes nothing over the extended reals.
-/
import proofs.«151260_j22995254903543_2_alg».proof.Proof.Gen.KernelIdeal.Frame
import proofs.«151260_j22995254903543_2_alg».proof.Proof.CellSpec
import proofs.«151260_j22995254903543_2_alg».proof.Proof.LibMatmul2
import Idealize.ShloMosaic.Lib.Pipeline.Value
import Idealize.ShloMosaic.Lib.ValueIdx
import Idealize.ShloMosaic.PureOps.Ideal.Laws

noncomputable section

open scoped BigOperators

namespace Cert.KernelIdeal.CellBlock

open Cert.KernelIdeal Cert.KernelIdeal.Gen Idealize.ShloMosaic Idealize.ShloMosaic.ValueIdx Cert.CellSpec

theorem hz : (![0, 0] : Fin 2 → Nat) = fun _ => 0 := funext fun a => by fin_cases a <;> rfl

/-! ## The two products at an entry -/

/-- In the input block's product the left operand's row is the result's row. -/
theorem xw_row (j : S256x2048.Idx) (c : dot_S256x1024_S1024x2048_S256x2048_1_0_0_1_n_n.contr.Idx) :
    (dot_S256x1024_S1024x2048_S256x2048_1_0_0_1_n_n.lhsIdx j c 0).val = (j 0).val := by
  unfold DotDims.lhsIdx
  rw [dif_neg (show ¬(0 : Fin S256x1024.rank) ∈ dot_S256x1024_S1024x2048_S256x2048_1_0_0_1_n_n.lhsBatch by decide),
    dif_pos (show (0 : Fin S256x1024.rank) ∈ dot_S256x1024_S1024x2048_S256x2048_1_0_0_1_n_n.lhsNonContracting by decide)]
  rfl

/-- and the right operand's column is the result's column. -/
theorem xw_col (j : S256x2048.Idx) (c : dot_S256x1024_S1024x2048_S256x2048_1_0_0_1_n_n.contr.Idx) :
    (dot_S256x1024_S1024x2048_S256x2048_1_0_0_1_n_n.rhsIdx j c 1).val = (j 1).val := by
  unfold DotDims.rhsIdx
  rw [dif_neg (show ¬(1 : Fin S1024x2048.rank) ∈ dot_S256x1024_S1024x2048_S256x2048_1_0_0_1_n_n.rhsBatch by decide),
    dif_pos (show (1 : Fin S1024x2048.rank) ∈ dot_S256x1024_S1024x2048_S256x2048_1_0_0_1_n_n.rhsNonContracting by decide)]
  rfl

/-- The same two facts for the hidden block's product. -/
theorem hw_row (j : S256x2048.Idx) (c : dot_S256x2048_S2048x2048_S256x2048_1_0_0_1_n_n.contr.Idx) :
    (dot_S256x2048_S2048x2048_S256x2048_1_0_0_1_n_n.lhsIdx j c 0).val = (j 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

theorem hw_col (j : S256x2048.Idx) (c : dot_S256x2048_S2048x2048_S256x2048_1_0_0_1_n_n.contr.Idx) :
    (dot_S256x2048_S2048x2048_S256x2048_1_0_0_1_n_n.rhsIdx j c 1).val = (j 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The input block times 2048 columns of `W`, into the zero accumulator, at `(p, q)`: the sum over `k`. -/
theorem xw_apply (A : FVec Ideal S256x1024 .bf16) (B : FVec Ideal S1024x2048 .bf16) (p : Fin 256) (q : Fin 2048) :
    FloatOps.matmul dot_S256x1024_S1024x2048_S256x2048_1_0_0_1_n_n none A B (constant S256x2048 .f32 0x00000000#32) (ix2 p q)
      = ∑ k : Fin 1024, A (ix2 p k) * B (ix2 k q) :=
  LibMatmul2.matmul_zero_apply dot_S256x1024_S1024x2048_S256x2048_1_0_0_1_n_n rfl rfl rfl rfl xw_row xw_col none A B p q

/-- The hidden block times 2048 columns of `Wh`, at `(p, q)`. -/
theorem hw_apply (A : FVec Ideal S256x2048 .bf16) (B : FVec Ideal S2048x2048 .bf16) (p : Fin 256) (q : Fin 2048) :
    FloatOps.matmul dot_S256x2048_S2048x2048_S256x2048_1_0_0_1_n_n none A B (constant S256x2048 .f32 0x00000000#32) (ix2 p q)
      = ∑ k : Fin 2048, A (ix2 p k) * B (ix2 k q) :=
  LibMatmul2.matmul_zero_apply dot_S256x2048_S2048x2048_S256x2048_1_0_0_1_n_n rfl rfl rfl rfl hw_row hw_col none A B p q

/-! ## The bias row along the batch, and a gate's columns of the weights -/

/-- A `[1, 2048]` row broadcast to the block's 256 rows, at `(p, q)`, is the row at `q`. -/
theorem row_apply (v : FVec Ideal S1x2048 .f32) (h : S1x2048.Broadcasts S256x2048) (p : Fin 256) (q : Fin 2048) :
    broadcastTo S256x2048 v h (ix2 p q) = v (ix2 0 q) :=
  broadcastTo_apply v h (ix2 p q) (ix2 0 q) fun a => match a with
    | ⟨0, _⟩ => by show (0 : Nat) = if (1 : Nat) = 1 then 0 else p.val; rw [if_pos rfl]
    | ⟨1, _⟩ => by show q.val = if (2048 : Nat) = 1 then 0 else q.val; rw [if_neg (by decide)]

/-- 2048 columns of a `K × 6144` array from column `o` on, read at `(k, q)`: the array at `(k, o + q)`. -/
theorem cols_apply {Val : EltTy → Type} {e : EltTy} {K : Nat} (X : (⟨2, ![K, 6144]⟩ : Shape).Idx → Val e) (o : Nat) (ho : o + 2048 ≤ 6144)
    (inb : ∀ a, (![0, o] : Fin 2 → Nat) a + (![K, 2048] : Fin 2 → Nat) a ≤ (⟨2, ![K, 6144]⟩ : Shape).size a)
    (k : Fin K) (q : Fin 2048) :
    View.ld X (Rect.unit (s := ⟨2, ![K, 6144]⟩) ![0, o] ![K, 2048] inb) (ix2 k q) = X (ix2 k (col o ho q)) := by
  show X _ = X _
  refine congrArg X (funext fun a => Fin.ext ?_)
  match a with
  | ⟨0, _⟩ => show 0 + 1 * k.val = k.val; omega
  | ⟨1, _⟩ => show o + 1 * q.val = o + q.val; omega

/-! ## The body's values at an entry -/

/-- The forget gate's pre-activation as the body computes it, from the loaded pieces, at `(p, q)`. -/
theorem gate_bias_apply (v0 : Vec Ideal S256x1024 .f32) (v2 : Vec Ideal S256x2048 .f32) (v5 : Vec Ideal S1024x2048 .bf16)
    (v11 : Vec Ideal S2048x2048 .bf16) (v17 : Vec Ideal S1x2048 .f32) (p : Fin 256) (q : Fin 2048) :
    k0_pay8 (F := Ideal) v0 v2 v5 v11 v17 (ix2 p q)
      = ((∑ k : Fin 1024, v0 (ix2 p k) * v5 (ix2 k q)) + ∑ k : Fin 2048, v2 (ix2 p k) * v11 (ix2 k q)) + v17 (ix2 0 q) := by
  unfold k0_pay8 k0_pay2 k0_pay3
  simp only [shapeCast_self]
  exact congrArg₂ (· + ·) (congrArg₂ (· + ·) (xw_apply _ _ p q) (hw_apply _ _ p q)) (row_apply _ _ p q)

/-- The input gate's two products added, before its bias, at `(p, q)`. -/
theorem gate_apply (v0 : Vec Ideal S256x1024 .f32) (v2 : Vec Ideal S256x2048 .f32) (v7 : Vec Ideal S1024x2048 .bf16)
    (v13 : Vec Ideal S2048x2048 .bf16) (p : Fin 256) (q : Fin 2048) :
    k0_pay9 (F := Ideal) v0 v2 v7 v13 (ix2 p q)
      = (∑ k : Fin 1024, v0 (ix2 p k) * v7 (ix2 k q)) + ∑ k : Fin 2048, v2 (ix2 p k) * v13 (ix2 k q) := by
  unfold k0_pay9 k0_pay2 k0_pay3
  simp only [shapeCast_self]
  exact congrArg₂ (· + ·) (xw_apply _ _ p q) (hw_apply _ _ p q)

/-- The stored value at `(p, q)`: the logistic of the forget gate times the old cell state, plus the logistic of the
    input gate (its bias added here) times the hyperbolic tangent of the candidate (computed here whole). -/
theorem state_apply (v1 : FVec Ideal S256x1024 .bf16) (v3 : FVec Ideal S256x2048 .bf16) (v4 : Vec Ideal S256x2048 .f32)
    (v10 : FVec Ideal S1024x2048 .bf16) (v16 : FVec Ideal S2048x2048 .bf16) (v20 v22 : FVec Ideal S1x2048 .f32)
    (v27 v30 : FVec Ideal S256x2048 .f32) (p : Fin 256) (q : Fin 2048) :
    k0_pay1 (F := Ideal) v1 v3 v4 v10 v16 v20 v22 v27 v30 (ix2 p q)
      = Ideal.logistic (v27 (ix2 p q)) * v4 (ix2 p q)
        + Ideal.logistic (v30 (ix2 p q) + v20 (ix2 0 q))
          * Ideal.tanh (((∑ k : Fin 1024, v1 (ix2 p k) * v10 (ix2 k q)) + ∑ k : Fin 2048, v3 (ix2 p k) * v16 (ix2 k q)) + v22 (ix2 0 q)) := by
  unfold k0_pay1
  exact congrArg₂ (· + ·) rfl (congrArg₂ (· * ·)
    (congrArg Ideal.logistic (congrArg₂ (· + ·) rfl (row_apply v20 _ p q)))
    (congrArg Ideal.tanh (congrArg₂ (· + ·) (congrArg₂ (· + ·) (xw_apply v1 v10 p q) (hw_apply v3 v16 p q)) (row_apply v22 _ p q))))

/-- WHAT THE BODY STORES, AT AN ENTRY: entry `(p, q)` of the block it leaves is the cell entry of row `p` of the input,
    hidden-state and cell-state blocks, with the whole weights and the bias row.  Each gate's three loads read columns
    `o + q` of the weights and of the bias (`o` = 0, 2048, 4096), which is where the specification reads them. -/
theorem out_apply (x0 : Vec Ideal S256x1024 .f32) (x1 : Vec Ideal S256x2048 .f32) (x2 : Vec Ideal S1024x6144 .bf16)
    (x3 : Vec Ideal S2048x6144 .bf16) (x4 : Vec Ideal S1x6144 .f32) (x5 : Vec Ideal S256x2048 .f32) (p : Fin 256) (q : Fin 2048) :
    out0_6 (F := Ideal) x0 x1 x2 x3 x4 x5 (ix2 p q)
      = cellEntry (fun k => x0 (ix2 p k)) (fun k => x1 (ix2 p k)) (x5 (ix2 p q)) (fun k n => x2 (ix2 k n))
          (fun k n => x3 (ix2 k n)) (fun n => x4 (ix2 0 n)) q := by
  unfold out0_6
  rw [View.canon_unit_zero hz]
  simp only [View.ld_unit_zero (S := S256x1024) hz, View.ld_unit_zero (S := S256x2048) hz]
  refine (state_apply _ _ _ _ _ _ _ _ _ p q).trans ?_
  rw [gate_bias_apply, gate_apply]
  unfold k0_pay2 k0_pay3 k0_pay4 k0_pay5 k0_pay6 k0_pay7
  simp only [shapeCast_self]
  unfold cellEntry pre
  refine congrArg₂ (· + ·) (congrArg₂ (· * ·) (congrArg Ideal.logistic ?_) rfl)
    (congrArg₂ (· * ·) (congrArg Ideal.logistic ?_) (congrArg Ideal.tanh ?_))
  all_goals
    refine congrArg₂ (· + ·) (congrArg₂ (· + ·) (Finset.sum_congr rfl fun k _ => congrArg₂ (· * ·) rfl ?_)
      (Finset.sum_congr rfl fun k _ => congrArg₂ (· * ·) rfl ?_)) ?_
  all_goals
    first
      | exact cols_apply (K := 1024) x2 _ _ _ _ q
      | exact cols_apply (K := 2048) x3 _ _ _ _ q
      | exact cols_apply (K := 1) x4 _ _ _ 0 q

end Cert.KernelIdeal.CellBlock

end
-- ==== Proof.CellArray.lean ====
/-
  From the grid points' blocks to the whole new cell state.

  The grid has 32 points.  Point `t` is handed rows `256·t … 256·t + 255` of the input, of the hidden state and of the old
  cell state, and — at every point — the whole of the two weight matrices and of the bias; it writes back rows
  `256·t … 256·t + 255` of the result.  The weights reach the kernel narrowed to sixteen bits and the bias as a single row:
  over the extended reals the narrowing is the identity and the row is the bias itself.  By Proof/CellBlock.lean entry
  `(p, q)` of what point `t` leaves is the cell entry of row `p` of its blocks, that is of row `256·t + p` of the arrays,
  which is entry `(256·t + p, q)` of the specification `cellArr` (Proof/CellSpec.lean).  Row `r` of the result is written by
  point `r / 256`, so the 32 blocks cover the result and it ends holding `cellArr` of the six arguments.
-/
import proofs.«151260_j22995254903543_2_alg».proof.Proof.Gen.KernelIdeal.Value
import proofs.«151260_j22995254903543_2_alg».proof.Proof.CellBlock
import Idealize.ShloMosaic.Lib.StableHlo.Run
import Idealize.ShloMosaic.Lib.Pipeline.Value
import Idealize.ShloMosaic.Lib.ValueIdx

noncomputable section

open scoped BigOperators

namespace Cert.KernelIdeal.CellArray

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.CellSpec
open Idealize.ShloMosaic.Pipeline (Dat)

variable (m : (ℓ : Loc nD τ sig) → Buf (Elt Ideal) ℓ) (ρ : Dev nD → PrngReg)

/-! ## Which block each window hands to a point -/

/-- The index maps, decided once over the 32 points: the input, the hidden state, the old cell state and the result move
    with the point along the batch axis; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem N_eq : cfg0.N = 32 := N_0

/-- The batch row that row `p` of point `t`'s blocks is. -/
def rowOf (t : Fin cfg0.N) (p : Fin 256) : Fin 8192 :=
  ⟨256 * t.val + p.val, by have h : t.val < 32 := Nat.lt_of_lt_of_eq t.isLt N_eq; have := p.isLt; omega⟩

@[simp] theorem rowOf_val (t : Fin cfg0.N) (p : Fin 256) : (rowOf t p).val = 256 * t.val + p.val := rfl

/-! ## The blocks, read as rows of the arguments -/

/-- Row `p` of the input block at point `t` is row `256·t + p` of the input. -/
theorem input_blk (c : Dev nD) (t : Fin cfg0.N) (p : Fin 256) (k : Fin 1024) :
    iblk m c 0 t (ix2 p k) = (m ((c : Thread nD τ).loc main_arg0) : S8192x1024.Idx → EReal) (ix2 (rowOf t p) k) := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 256 + 1 * p.val = 256 * t.val + p.val; rw [e0]; omega
  | ⟨1, _⟩ => show win0_0.index t 1 * 1024 + 1 * k.val = k.val; rw [e1]; omega

/-- Row `p` of the hidden-state block at point `t` is row `256·t + p` of the hidden state. -/
theorem hidden_blk (c : Dev nD) (t : Fin cfg0.N) (p : Fin 256) (k : Fin 2048) :
    iblk m c 1 t (ix2 p k) = (m ((c : Thread nD τ).loc main_arg1) : S8192x2048.Idx → EReal) (ix2 (rowOf t p) k) := by
  obtain ⟨-, -, e0, e1, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 256 + 1 * p.val = 256 * t.val + p.val; rw [e0]; omega
  | ⟨1, _⟩ => show win0_1.index t 1 * 2048 + 1 * k.val = k.val; rw [e1]; omega

/-- Row `p` of the old cell state's block at point `t` is row `256·t + p` of the old cell state. -/
theorem state_blk (c : Dev nD) (t : Fin cfg0.N) (p : Fin 256) (q : Fin 2048) :
    iblk m c 5 t (ix2 p q) = (m ((c : Thread nD τ).loc main_arg2) : S8192x2048.Idx → EReal) (ix2 (rowOf t p) q) := by
  obtain ⟨-, -, -, -, -, -, -, -, -, -, e0, e1, -⟩ := idx_facts t
  unfold iblk
  rw [View.read_apply]
  show V m c main_arg2 _ = m (c.tc.loc main_arg2) _
  rw [V_main_arg2]
  refine congrArg _ (funext fun a => Fin.ext ?_)
  match a with
  | ⟨0, _⟩ => show win0_5.index t 0 * 256 + 1 * p.val = 256 * t.val + p.val; rw [e0]; omega
  | ⟨1, _⟩ => show win0_5.index t 1 * 2048 + 1 * q.val = q.val; rw [e1]; omega

/-- The weights `W` narrowed to sixteen bits before the call are, over the extended reals, `W`. -/
theorem narrowed_W (c : Dev nD) :
    (V m c main_v0 : S1024x6144.Idx → EReal) = (m ((c : Thread nD τ).loc main_arg3) : S1024x6144.Idx → EReal) := by
  dsimp only [Gen.V, Gen.hostOps0]; after_results; rfl

/-- and the same for `Wh`. -/
theorem narrowed_Wh (c : Dev nD) :
    (V m c main_v1 : S2048x6144.Idx → EReal) = (m ((c : Thread nD τ).loc main_arg4) : S2048x6144.Idx → EReal) := by
  dsimp only [Gen.V, Gen.hostOps0]; after_results; rfl

/-- The bias laid out as one row of 6144 before the call: entry `(0, n)` of the row is entry `n` of the bias. -/
theorem bias_row (c : Dev nD) (n : Fin 6144) :
    (V m c main_v2 : S1x6144.Idx → EReal) (ix2 0 n) = (m ((c : Thread nD τ).loc main_arg5) : S6144.Idx → EReal) (ix1 n) := by
  have e : (V m c main_v2 : S1x6144.Idx → EReal)
      = shapeCast S1x6144 (m ((c : Thread nD τ).loc main_arg5) : S6144.Idx → EReal) (show S6144.ShapeCasts S1x6144 by decide) := by
    dsimp only [Gen.V, Gen.hostOps0]; after_results; rfl
  rw [e]
  refine shapeCast_apply _ _ (ix2 0 n) (ix1 n) ?_
  rw [Shape.rowMajor_val_one, Shape.rowMajor_val_two]
  show n.val = 0 * 6144 + n.val
  omega

/-- Every point is handed the whole of `W`. -/
theorem W_blk (c : Dev nD) (t : Fin cfg0.N) (k : Fin 1024) (n : Fin 6144) :
    iblk m c 2 t (ix2 k n) = (m ((c : Thread nD τ).loc main_arg3) : S1024x6144.Idx → EReal) (ix2 k n) := by
  obtain ⟨-, -, -, -, e0, e1, -⟩ := idx_facts t
  unfold iblk
  rw [View.read_apply]
  show (V m c main_v0 : S1024x6144.Idx → EReal) _ = _
  rw [narrowed_W]
  refine congrArg _ (funext fun a => Fin.ext ?_)
  match a with
  | ⟨0, _⟩ => show win0_2.index t 0 * 1024 + 1 * k.val = k.val; rw [e0]; omega
  | ⟨1, _⟩ => show win0_2.index t 1 * 6144 + 1 * n.val = n.val; rw [e1]; omega

/-- Every point is handed the whole of `Wh`. -/
theorem Wh_blk (c : Dev nD) (t : Fin cfg0.N) (k : Fin 2048) (n : Fin 6144) :
    iblk m c 3 t (ix2 k n) = (m ((c : Thread nD τ).loc main_arg4) : S2048x6144.Idx → EReal) (ix2 k n) := by
  obtain ⟨-, -, -, -, -, -, e0, e1, -⟩ := idx_facts t
  unfold iblk
  rw [View.read_apply]
  show (V m c main_v1 : S2048x6144.Idx → EReal) _ = _
  rw [narrowed_Wh]
  refine congrArg _ (funext fun a => Fin.ext ?_)
  match a with
  | ⟨0, _⟩ => show win0_3.index t 0 * 2048 + 1 * k.val = k.val; rw [e0]; omega
  | ⟨1, _⟩ => show win0_3.index t 1 * 6144 + 1 * n.val = n.val; rw [e1]; omega

/-- Every point is handed the whole bias, as its one row. -/
theorem bias_blk (c : Dev nD) (t : Fin cfg0.N) (n : Fin 6144) :
    iblk m c 4 t (ix2 0 n) = (m ((c : Thread nD τ).loc main_arg5) : S6144.Idx → EReal) (ix1 n) := by
  obtain ⟨-, -, -, -, -, -, -, -, e0, e1, -⟩ := idx_facts t
  unfold iblk
  rw [View.read_apply]
  show (V m c main_v2 : S1x6144.Idx → EReal) _ = _
  rw [← bias_row m c n]
  refine congrArg _ (funext fun a => Fin.ext ?_)
  match a with
  | ⟨0, _⟩ => show win0_4.index t 0 * 1 + 1 * 0 = 0; rw [e0]
  | ⟨1, _⟩ => show win0_4.index t 1 * 6144 + 1 * n.val = n.val; rw [e1]; omega

/-! ## What a point writes back, the cover, the run -/

/-- The result: the specification of the six arguments as launched. -/
abbrev result (c : Dev nD) : Buf (Elt Ideal) ((c : Thread nD τ).loc main_v3) :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` — rows `256·t … 256·t + 255` — of the result. -/
theorem flushed_eq (c : Dev nD) (t : Fin cfg0.N) :
    (dats m 0 c).flushed 6 t = ((cfg0.win 6).blk t).view.read (Elt Ideal) (result m c) := by
  rw [flushed6]
  funext j
  obtain ⟨p, q, rfl⟩ : ∃ (p : Fin 256) (q : Fin 2048), j = ix2 p q := ⟨j 0, j 1, eq_ix2 j⟩
  obtain ⟨-, -, -, -, -, -, -, -, -, -, -, -, e0, e1⟩ := idx_facts t
  have hemb : ((cfg0.win 6).blk t).view.emb (ix2 p q) = ix2 (rowOf t p) q := funext fun a => Fin.ext (by
    match a with
    | ⟨0, _⟩ => show win0_6.index t 0 * 256 + 1 * p.val = 256 * t.val + p.val; rw [e0]; omega
    | ⟨1, _⟩ => show win0_6.index t 1 * 2048 + 1 * q.val = q.val; rw [e1]; omega)
  show out0_6 (iblk m c 0 t) (iblk m c 1 t) (iblk m c 2 t) (iblk m c 3 t) (iblk m c 4 t) (iblk m c 5 t) (ix2 p q)
    = result m c (((cfg0.win 6).blk t).view.emb (ix2 p q))
  rw [hemb, CellBlock.out_apply]
  show _ = cellArr _ _ _ _ _ _ (ix2 (rowOf t p) q)
  rw [cellArr_apply]
  simp only [input_blk, hidden_blk, state_blk, W_blk, Wh_blk, bias_blk]

/-- An index of the result is in point `t`'s block iff each coordinate is in the block's range on its axis. -/
theorem mem_blk (t : Fin cfg0.N) (i : S8192x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v3).slice (win0_6.rect t)).set ↔ _
  rw [View.set_slice_whole, Rect.mem_set_unit]
  exact Iff.rfl

/-- Row `r` of the result lies in the block of point `r / 256`: the blocks cover the result. -/
theorem cover (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have ht : (i 0).val / 256 < cfg0.N := by rw [N_eq]; omega
  obtain ⟨-, -, -, -, -, -, -, -, -, -, -, -, e0, e1⟩ := idx_facts ⟨(i 0).val / 256, ht⟩
  refine ⟨⟨(i 0).val / 256, ht⟩, flush0_6 _, ?_⟩
  rw [mem_blk]
  intro a
  match a with
  | ⟨0, _⟩ =>
    show win0_6.index ⟨(i 0).val / 256, ht⟩ 0 * 256 ≤ (i 0).val ∧ (i 0).val < win0_6.index ⟨(i 0).val / 256, ht⟩ 0 * 256 + 256
    rw [e0]; show (i 0).val / 256 * 256 ≤ (i 0).val ∧ (i 0).val < (i 0).val / 256 * 256 + 256; omega
  | ⟨1, _⟩ =>
    show win0_6.index ⟨(i 0).val / 256, ht⟩ 1 * 2048 ≤ (i 1).val ∧ (i 1).val < win0_6.index ⟨(i 0).val / 256, ht⟩ 1 * 2048 + 2048
    rw [e1]; omega

/-- THE RESULT ARRAY after the run is the specification of the six arguments. -/
theorem final (c : Dev nD) : (dats m 0 c).arrAt 6 cfg0.N = result m c :=
  (dats m 0 c).arrAt_eq_of_cover 6 (result m c) (fun t _ => flushed_eq m c t) cover

/-- The kernel's run, read: the result at the specification, the six arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.CellArray

end
-- ==== Proof.lean ====
/-
  One step of a recurrent cell's state, computed in blocks of 256 batch rows, against the plain formula.

  Both programs compute, for a batch of 8192 rows,

      c₁ = σ(f) · c₀ + σ(i) · tanh(g),      [f | i | g] = (x · W + h · Wh) + b,

  with `x` the input (1024 wide), `h` the hidden state and `c₀` the old cell state (2048 wide), `W` and `Wh` the weights
  (6144 columns: the three gates side by side) and `b` the bias.  The reference forms the 6144-wide pre-activations of
  the whole batch and cuts them into the three gates; the kernel takes 256 rows at a time, cuts the weights' and the
  bias's columns into the three gates first and multiplies each gate's columns separately, on operands narrowed to sixteen
  bits.  Over the extended reals narrowing is the identity, a column of a product is the product with that column, and
  the logistic function is by definition the quotient the reference spells; no other law is used, so the finiteness of the
  inputs is never opened.

  Proof/CellSpec.lean states the result entry by entry (`cellArr`); Proof/RefCell.lean shows the reference's result is it;
  Proof/CellBlock.lean reads what one grid point stores; Proof/CellArray.lean shows the 32 blocks make up `cellArr` of the
  arguments.  Here the two runs are set side by side.  The kernel's and the idealized kernel's frames are the generated
  ones; the reference's frame is its generated run with the result dropped; the idealization rewrote nothing, so there
  is nothing to preserve.
-/
import proofs.«151260_j22995254903543_2_alg».proof.Defs
import proofs.«151260_j22995254903543_2_alg».proof.Proof.Gen.Kernel
import proofs.«151260_j22995254903543_2_alg».proof.Proof.Gen.Kernel.Skeleton
import proofs.«151260_j22995254903543_2_alg».proof.Proof.Gen.Kernel.Launch
import proofs.«151260_j22995254903543_2_alg».proof.Proof.Gen.Kernel.Points
import proofs.«151260_j22995254903543_2_alg».proof.Proof.Gen.Kernel.Frame
import proofs.«151260_j22995254903543_2_alg».proof.Proof.Gen.KernelIdeal
import proofs.«151260_j22995254903543_2_alg».proof.Proof.Gen.KernelIdeal.Skeleton
import proofs.«151260_j22995254903543_2_alg».proof.Proof.Gen.KernelIdeal.Launch
import proofs.«151260_j22995254903543_2_alg».proof.Proof.Gen.KernelIdeal.Points
import proofs.«151260_j22995254903543_2_alg».proof.Proof.Gen.KernelIdeal.Frame
import proofs.«151260_j22995254903543_2_alg».proof.Proof.Gen.ReferenceIdeal
import proofs.«151260_j22995254903543_2_alg».proof.Proof.Gen.Pre_finite_inputs
import proofs.«151260_j22995254903543_2_alg».proof.Proof.Gen.KernelIdeal.Value
import proofs.«151260_j22995254903543_2_alg».proof.Proof.Gen.ReferenceIdeal.Run
import proofs.«151260_j22995254903543_2_alg».proof.Proof.Gen.ReferenceIdeal.Read
import proofs.«151260_j22995254903543_2_alg».proof.Proof.CellSpec
import proofs.«151260_j22995254903543_2_alg».proof.Proof.RefCell
import proofs.«151260_j22995254903543_2_alg».proof.Proof.CellBlock
import proofs.«151260_j22995254903543_2_alg».proof.Proof.CellArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the new cell state `cellArr` of those
    arguments: the kernel block by block (Proof/CellArray.lean), the reference in one piece (Proof/RefCell.lean). -/
theorem algebraic : Cert.algebraic_KernelIdeal_ReferenceIdeal := by
  intro m ρ m' ρ' _ hagree
  refine ⟨fun c => Cert.KernelIdeal.CellArray.result m c, Cert.KernelIdeal.CellArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefCell.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
